-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000 : Shape := ⟨1, ![100000]⟩
abbrev S2x1600000 : Shape := ⟨2, ![2, 1600000]⟩
abbrev S3 : Shape := ⟨1, ![3]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3 : S_.BroadcastsInDim S3 (![] : Fin 0 → Fin S3.rank)
  reducesTo_S3_S_d0 : S3.ReducesTo [0] S_

variable [Facts]

def fn {F : FTy → Type} [FloatOps F] (main_arg0 : FVec F S100000x64 .f32) (main_arg1 : IVec S100000 32) (main_arg2 : IVec S2x1600000 32) (main_arg3 : FVec F S3 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3 .f32 := Host.absf main_arg3
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  main_v8
-- ==== Kernel.lean ====
abbrev S100000x64 : Shape := ⟨2, ![100000, 64]⟩
abbrev S100000 : Shape := ⟨1, ![100000]⟩
abbrev S2x1600000 : Shape := ⟨2, ![2, 1600000]⟩
abbrev S3 : Shape := ⟨1, ![3]⟩
abbrev S_ : Shape := ⟨0, ![]⟩
abbrev S100000x1 : Shape := ⟨2, ![100000, 1]⟩
abbrev S1x1600000 : Shape := ⟨2, ![1, 1600000]⟩
abbrev S1600000 : Shape := ⟨1, ![1600000]⟩
abbrev S1600000x1 : Shape := ⟨2, ![1600000, 1]⟩
abbrev S1 : Shape := ⟨1, ![1]⟩
abbrev S1600000x64 : Shape := ⟨2, ![1600000, 64]⟩
abbrev S6400x64 : Shape := ⟨2, ![6400, 64]⟩
abbrev S6400x1 : Shape := ⟨2, ![6400, 1]⟩

abbrev nBuf : Space → Nat
  | .hbm => 96
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S100000, .i32⟩
  | .hbm, ⟨2, _⟩ => ⟨S2x1600000, .i32⟩
  | .hbm, ⟨3, _⟩ => ⟨S3, .f32⟩
  | .hbm, ⟨4, _⟩ => ⟨S_, .i32⟩
  | .hbm, ⟨5, _⟩ => ⟨S100000, .i32⟩
  | .hbm, ⟨6, _⟩ => ⟨S100000, .i1⟩
  | .hbm, ⟨7, _⟩ => ⟨S_, .i32⟩
  | .hbm, ⟨8, _⟩ => ⟨S100000, .i32⟩
  | .hbm, ⟨9, _⟩ => ⟨S100000, .i32⟩
  | .hbm, ⟨10, _⟩ => ⟨S100000, .i32⟩
  | .hbm, ⟨11, _⟩ => ⟨S100000x1, .i32⟩
  | .hbm, ⟨12, _⟩ => ⟨S100000x64, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000, .f32⟩
  | .hbm, ⟨52, _⟩ => ⟨S1600000, .f32⟩
  | .hbm, ⟨53, _⟩ => ⟨S1600000x1, .f32⟩
  | .hbm, ⟨54, _⟩ => ⟨S1, .f32⟩
  | .hbm, ⟨55, _⟩ => ⟨S_, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S1, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x64, .f32⟩
  | .hbm, ⟨86, _⟩ => ⟨S1600000x64, .f32⟩
  | .hbm, ⟨87, _⟩ => ⟨S_, .f32⟩
  | .hbm, ⟨88, _⟩ => ⟨S100000x64, .f32⟩
  | .hbm, ⟨89, _⟩ => ⟨S1600000x1, .i32⟩
  | .hbm, ⟨90, _⟩ => ⟨S100000x64, .f32⟩
  | .hbm, ⟨91, _⟩ => ⟨S1, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S100000x64, .f32⟩
  | .local _ .vmem, ⟨0, _⟩ => ⟨S6400x64, .f32⟩
  | .local _ .vmem, ⟨1, _⟩ => ⟨S6400x64, .f32⟩
  | .local _ .vmem, ⟨2, _⟩ => ⟨S6400x1, .f32⟩
  | .local _ .vmem, ⟨3, _⟩ => ⟨S6400x1, .f32⟩
  | .local _ .vmem, ⟨4, _⟩ => ⟨S6400x64, .f32⟩
  | .local _ .vmem, ⟨5, _⟩ => ⟨S6400x64, .f32⟩
  | .local _ .vmem, ⟨6, _⟩ => ⟨S6400x64, .f32⟩
  | .local _ .vmem, ⟨7, _⟩ => ⟨S6400x64, .f32⟩
  | .local _ .vmem, ⟨8, _⟩ => ⟨S6400x1, .f32⟩
  | .local _ .vmem, ⟨9, _⟩ => ⟨S6400x1, .f32⟩
  | .local _ .vmem, ⟨10, _⟩ => ⟨S6400x64, .f32⟩
  | .local _ .vmem, ⟨11, _⟩ => ⟨S6400x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  slices_S3_S1_0 : S3.Slices ![0] S1
  shapeCasts_S1_S_ : S1.ShapeCasts S_
  bcast_S_S100000x64 : S_.BroadcastsInDim S100000x64 (![] : Fin 0 → Fin S100000x64.rank)
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x64 : S6400x1.Broadcasts S6400x64
  slices_S3_S1_1 : S3.Slices ![1] S1
  slices_S3_S1_2 : S3.Slices ![2] S1
  gather_S100000x64_S100000x1_S100000x64_1_0_n_n_0_1_164_wf : GatherDims.WF S100000x64 S100000x1 S100000x64 [1] [0] [] [0] [] 1 ![1, 64]
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S1600000x1.size a
  hwx0_1 : ∀ i : grid0.Coords, EltTy.bits .f32 = 32 ∨ (Rect.block (s := S1600000x1) S6400x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x64.size a ≤ S1600000x64.size a
  hwx0_2 : ∀ i : grid0.Coords, EltTy.bits .f32 = 32 ∨ (Rect.block (s := S1600000x64) S6400x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S1600000x64.size a
  hwx1_0 : ∀ i : grid1.Coords, EltTy.bits .f32 = 32 ∨ (Rect.block (s := S1600000x64) S6400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S1600000x1.size a
  hwx1_1 : ∀ i : grid1.Coords, EltTy.bits .f32 = 32 ∨ (Rect.block (s := S1600000x1) S6400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x64.size a ≤ S1600000x64.size a
  hwx1_2 : ∀ i : grid1.Coords, EltTy.bits .f32 = 32 ∨ (Rect.block (s := S1600000x64) S6400x64.size (cc1_transform_2 i) (hinb1_2 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v47) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S6400x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v63) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S6400x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S100000 : Shape := ⟨1, ![100000]⟩
abbrev S2x1600000 : Shape := ⟨2, ![2, 1600000]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S1 : Shape := ⟨1, ![1]⟩
abbrev S1600000x1 : Shape := ⟨2, ![1600000, 1]⟩
abbrev S1600000x64 : Shape := ⟨2, ![1600000, 64]⟩

abbrev nBuf : Space → Nat
  | .hbm => 135
  | .vmem => 0
  | .smem => 0
  | _ => 0

abbrev hbmTy0_0 (i : Nat) : BufTy := match i % 128 with
  | 0 => ⟨S100000x64, .f32⟩
  | 1 => ⟨S100000, .i32⟩
  | 2 => ⟨S2x1600000, .i32⟩
  | 3 => ⟨S3, .f32⟩
  | 4 => ⟨S1x1600000, .i32⟩
  | 5 => ⟨S1600000, .i32⟩
  | 6 => ⟨S1x1600000, .i32⟩
  | 7 => ⟨S1600000, .i32⟩
  | 8 => ⟨S_, .i32⟩
  | 9 => ⟨S100000, .i32⟩
  | 10 => ⟨S100000, .i1⟩
  | 11 => ⟨S_, .i32⟩
  | 12 => ⟨S100000, .i32⟩
  | 13 => ⟨S100000, .i32⟩
  | 14 => ⟨S100000, .i32⟩
  | 15 => ⟨S100000x1, .i32⟩
  | 16 => ⟨S100000x64, .f32⟩
  | 17 => ⟨S1, .f32⟩
  | 18 => ⟨S_, .f32⟩
  | 19 => ⟨S100000x64, .f32⟩
  | 20 => ⟨S100000x64, .f32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S1600000x1, .f32⟩
  | 67 => ⟨S1600000x64, .f32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S1, .f32⟩
  | 74 => ⟨S_, .f32⟩
  | 75 => ⟨S100000x64, .f32⟩
  | 76 => ⟨S100000x64, .f32⟩
  | 77 => ⟨S100000x64, .f32⟩
  | 78 => ⟨S_, .f32⟩
  | 79 => ⟨S1600000, .f32⟩
  | 80 => ⟨S_, .f32⟩
  | 81 => ⟨S100000, .f32⟩
  | 82 => ⟨S1600000x1, .i32⟩
  | 83 => ⟨S100000, .f32⟩
  | 84 => ⟨S_, .f32⟩
  | 85 => ⟨S100000, .f32⟩
  | 86 => ⟨S100000, .i1⟩
  | 87 => ⟨S_, .f32⟩
  | 88 => ⟨S100000, .f32⟩
  | 89 => ⟨S100000, .f32⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000, .f32⟩
  | 113 => ⟨S1600000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x64, .f32⟩
  | 123 => ⟨S1600000x1, .f32⟩
  | 124 => ⟨S1600000x64, .f32⟩
  | 125 => ⟨S1600000x64, .f32⟩
  | 126 => ⟨S_, .f32⟩
  | 127 => ⟨S100000x64, .f32⟩
  | _ => ⟨S100000x64, .f32⟩

abbrev hbmTy0_1 (i : Nat) : BufTy := match i % 128 with
  | 0 => ⟨S1600000x1, .i32⟩
  | 1 => ⟨S100000x64, .f32⟩
  | 2 => ⟨S1, .f32⟩
  | 3 => ⟨S_, .f32⟩
  | 4 => ⟨S100000x64, .f32⟩
  | 5 => ⟨S100000x64, .f32⟩
  | 6 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_16 : Ref sig .tc := ⟨.hbm, 91, rfl⟩
abbrev main_call1_v0 : Ref sig .tc := ⟨.hbm, 92, rfl⟩
abbrev main_call1_v1 : Ref sig .tc := ⟨.hbm, 93, rfl⟩
abbrev main_v67 : Ref sig .tc := ⟨.hbm, 94, rfl⟩
abbrev main_c_17 : Ref sig .tc := ⟨.hbm, 95, rfl⟩
abbrev main_v68 : Ref sig .tc := ⟨.hbm, 96, rfl⟩
abbrev main_v69 : Ref sig .tc := ⟨.hbm, 97, rfl⟩
abbrev main_c_18 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_19 : Ref sig .tc := ⟨.hbm, 104, rfl⟩
abbrev main_v75 : Ref sig .tc := ⟨.hbm, 105, rfl⟩
abbrev main_v76 : Ref sig .tc := ⟨.hbm, 106, rfl⟩
abbrev main_c_20 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_21 : Ref sig .tc := ⟨.hbm, 114, rfl⟩
abbrev main_v83 : Ref sig .tc := ⟨.hbm, 115, rfl⟩
abbrev main_v84 : Ref sig .tc := ⟨.hbm, 116, rfl⟩
abbrev main_c_22 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_23 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  slices_S3_S1_0 : S3.Slices ![0] S1
  shapeCasts_S1_S_ : S1.ShapeCasts S_
  bcast_S_S100000x64 : S_.BroadcastsInDim S100000x64 (![] : Fin 0 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  slices_S3_S1_1 : S3.Slices ![1] S1
  slices_S3_S1_2 : S3.Slices ![2] S1
  gather_S100000x64_S100000x1_S100000x64_1_0_n_n_0_1_164_wf : GatherDims.WF S100000x64 S100000x1 S100000x64 [1] [0] [] [0] [] 1 ![1, 64]
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The function both programs compute, as whole arrays, at any float instance.

  Inputs: an embedding table `E` ([100000, 64]), node ids `ids` ([100000]), an edge list `ed` ([2, 1600000]: row 0 the
  sources, row 1 the targets) and three layer weights `w` ([3]). An index below zero is first moved up by 100000
  (`wrapN`, `wrapE`). Then

    x₀        = E gathered at the wrapped ids                                  (`lookup`)
    deg       = the number of edges into each node: ones scattered at the targets           (`deg`)
    dinv      = deg^(-1/2) where deg > 0 (taken of max deg 1), and 0 elsewhere             (`dinv`)
    norm e    = dinv (src e) · dinv (tgt e)                                   (`norm`)
    layer x   = for each node, the sum over the edges into it of  x (src e) · norm e      (`layer`: `atIdx`, `scaled`, `sumAt`)
    result    = w₀ · x₀ + w₁ · layer x₀ + w₂ · layer (layer x₀)                (`result`)

  `scaled` is the message matrix of a layer, `x (src e, d) · norm e`, with the edge weights first made a column
  [1600000, 1] and then spread along the 64 features.
-/
import proofs.«110756_j54580444398201_1_alg».proof.ReferenceIdeal
import proofs.«110756_j54580444398201_1_alg».proof.Proof.Gen.ReferenceIdeal

noncomputable section

namespace Cert.Spec

open Cert.ReferenceIdeal Cert.ReferenceIdeal.Gen Idealize.ShloMosaic

variable {F : FTy → Type} [FloatOps F]

/-- Node ids with the negative ones moved up by the number of nodes. -/
def wrapN (ids : (⟨S100000, .i32⟩ : BufTy).Contents (Elt F)) : (⟨S100000, .i32⟩ : BufTy).Contents (Elt F) :=
  select (cmpi .slt ids (broadcastInDim S100000 ![] bcast_S_S100000 (constantI S_ 32 0#32)))
    (addi ids (broadcastInDim S100000 ![] bcast_S_S100000 (constantI S_ 32 100000#32))) ids

/-- An edge endpoint list with the negative entries moved up by the number of nodes. -/
def wrapE (e : (⟨S1600000, .i32⟩ : BufTy).Contents (Elt F)) : (⟨S1600000, .i32⟩ : BufTy).Contents (Elt F) :=
  select (cmpi .slt e (broadcastInDim S1600000 ![] bcast_S_S1600000 (constantI S_ 32 0#32)))
    (addi e (broadcastInDim S1600000 ![] bcast_S_S1600000 (constantI S_ 32 100000#32))) e

/-- The sources: row 0 of the edge list. -/
def src (ed : (⟨S2x1600000, .i32⟩ : BufTy).Contents (Elt F)) : (⟨S1600000, .i32⟩ : BufTy).Contents (Elt F) :=
  shapeCast S1600000 (extractStridedSlice S1x1600000 ![0, 0] ed slices_S2x1600000_S1x1600000_0_0) shapeCasts_S1x1600000_S1600000

/-- The targets: row 1 of the edge list. -/
def tgt (ed : (⟨S2x1600000, .i32⟩ : BufTy).Contents (Elt F)) : (⟨S1600000, .i32⟩ : BufTy).Contents (Elt F) :=
  shapeCast S1600000 (extractStridedSlice S1x1600000 ![1, 0] ed slices_S2x1600000_S1x1600000_1_0) shapeCasts_S1x1600000_S1600000

/-- An endpoint list as the one-column index array a gather or a scatter takes. -/
def col (e : (⟨S1600000, .i32⟩ : BufTy).Contents (Elt F)) : (⟨S1600000x1, .i32⟩ : BufTy).Contents (Elt F) :=
  broadcastInDim S1600000x1 ![0] bcast_S1600000_S1600000x1_0 e

/-- The embedding rows of the (wrapped) node ids. -/
def lookup (E : (⟨S100000x64, .f32⟩ : BufTy).Contents (Elt F)) (ids : (⟨S100000, .i32⟩ : BufTy).Contents (Elt F)) :
    (⟨S100000x64, .f32⟩ : BufTy).Contents (Elt F) :=
  Host.gather gather_S100000x64_S100000x1_S100000x64_1_0_n_n_0_1_164 E
    (broadcastInDim S100000x1 ![0] bcast_S100000_S100000x1_0 (wrapN (F := F) ids))

/-- The in-degree of every node: a one for every edge, added at the edge's target. -/
def deg (ed : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32))
    (col (F := F) (tgt (F := F) ed))
    (broadcastInDim S1600000 ![] bcast_S_S1600000 (constant (F := F) S_ .f32 0x3F800000#32))

/-- `deg^(-1/2)` where the degree is positive (the root taken of `max deg 1`), zero elsewhere. -/
def dinv (ed : (⟨S2x1600000, .i32⟩ : BufTy).Contents (Elt F)) : (⟨S100000, .f32⟩ : BufTy).Contents (Elt F) :=
  select (cmpf (F := F) .ogt (deg (F := F) ed) (broadcastInDim S100000 ![] bcast_S_S100000 (constant (F := F) S_ .f32 0x00000000#32)))
    (Host.rsqrt (maximumf (deg (F := F) ed) (broadcastInDim S100000 ![] bcast_S_S100000 (constant (F := F) S_ .f32 0x3F800000#32))))
    (broadcastInDim S100000 ![] bcast_S_S100000 (id (constant (F := F) S_ .f32 0x00000000#32)))

/-- The weight of every edge: the two endpoints' `dinv` multiplied. -/
def norm (ed : (⟨S2x1600000, .i32⟩ : BufTy).Contents (Elt F)) : (⟨S1600000, .f32⟩ : BufTy).Contents (Elt F) :=
  mulf (Host.gather gather_S100000_S1600000x1_S1600000_n_0_n_n_0_1_1 (dinv (F := F) ed) (col (F := F) (wrapE (F := F) (src (F := F) ed))))
    (Host.gather gather_S100000_S1600000x1_S1600000_n_0_n_n_0_1_1 (dinv (F := F) ed) (col (F := F) (wrapE (F := F) (tgt (F := F) ed))))

/-- The rows of `x` at the (wrapped) entries of an endpoint list `s`: one row per edge. -/
def atIdx (x : (⟨S100000x64, .f32⟩ : BufTy).Contents (Elt F)) (s : (⟨S1600000, .i32⟩ : BufTy).Contents (Elt F)) :
    (⟨S1600000x64, .f32⟩ : BufTy).Contents (Elt F) :=
  Host.gather gather_S100000x64_S1600000x1_S1600000x64_1_0_n_n_0_1_164 x (col (F := F) (wrapE (F := F) s))

/-- An edge-by-feature matrix with every row multiplied by its edge's weight: the weights made a column, the column
    spread along the features, and the two matrices multiplied entry by entry. -/
def scaled (xs : (⟨S1600000x64, .f32⟩ : BufTy).Contents (Elt F)) (nrm : (⟨S1600000, .f32⟩ : BufTy).Contents (Elt F)) :
    (⟨S1600000x64, .f32⟩ : BufTy).Contents (Elt F) :=
  mulf xs (broadcastInDim S1600000x64 ![0, 1] bcast_S1600000x1_S1600000x64_0_1
    (broadcastInDim S1600000x1 ![0] bcast_S1600000_S1600000x1_0 nrm))

/-- The messages `m` ([1600000, 64]: one row per edge) added up at the entries of an endpoint list `t`: one row per node. -/
def sumAt (m : (⟨S1600000x64, .f32⟩ : BufTy).Contents (Elt F)) (t : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32))
    (col (F := F) t) m

/-- One propagation layer. -/
def layer (x : (⟨S100000x64, .f32⟩ : BufTy).Contents (Elt F)) (ed : (⟨S2x1600000, .i32⟩ : BufTy).Contents (Elt F)) :
    (⟨S100000x64, .f32⟩ : BufTy).Contents (Elt F) :=
  sumAt (F := F) (scaled (F := F) (atIdx (F := F) x (src (F := F) ed)) (norm (F := F) ed)) (tgt (F := F) ed)

/-- Layer weight `k` spread over a node-by-feature array. -/
def w0 (w : (⟨S3, .f32⟩ : BufTy).Contents (Elt F)) : (⟨S100000x64, .f32⟩ : BufTy).Contents (Elt F) :=
  broadcastInDim S100000x64 ![] bcast_S_S100000x64 (shapeCast S_ (extractStridedSlice S1 ![0] w slices_S3_S1_0) shapeCasts_S1_S_)
def w1 (w : (⟨S3, .f32⟩ : BufTy).Contents (Elt F)) : (⟨S100000x64, .f32⟩ : BufTy).Contents (Elt F) :=
  broadcastInDim S100000x64 ![] bcast_S_S100000x64 (shapeCast S_ (extractStridedSlice S1 ![1] w slices_S3_S1_1) shapeCasts_S1_S_)
def w2 (w : (⟨S3, .f32⟩ : BufTy).Contents (Elt F)) : (⟨S100000x64, .f32⟩ : BufTy).Contents (Elt F) :=
  broadcastInDim S100000x64 ![] bcast_S_S100000x64 (shapeCast S_ (extractStridedSlice S1 ![2] w slices_S3_S1_2) shapeCasts_S1_S_)

/-- The weighted sum of the embeddings and of their first two propagations. -/
def result (E : (⟨S100000x64, .f32⟩ : BufTy).Contents (Elt F)) (ids : (⟨S100000, .i32⟩ : BufTy).Contents (Elt F))
    (ed : (⟨S2x1600000, .i32⟩ : BufTy).Contents (Elt F)) (w : (⟨S3, .f32⟩ : BufTy).Contents (Elt F)) :
    (⟨S100000x64, .f32⟩ : BufTy).Contents (Elt F) :=
  addf (addf (mulf (w0 (F := F) w) (lookup (F := F) E ids))
      (mulf (w1 (F := F) w) (layer (F := F) (lookup (F := F) E ids) ed)))
    (mulf (w2 (F := F) w) (layer (F := F) (layer (F := F) (lookup (F := F) E ids) ed) ed))

end Cert.Spec

end
-- ==== Proof.RefValue.lean ====
/-
  The idealized reference's result is the specification's `result` of its four arguments: the run states the result
  buffer as the composition of the program's 131 operations, and the specification's definitions are that composition
  cut into named pieces (the edge weights, which the reference computes once per layer from the same inputs by the same
  operations, are one piece used twice).
-/
import proofs.«110756_j54580444398201_1_alg».proof.Proof.RefRun
import proofs.«110756_j54580444398201_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxHeartbeats 4000000 in
theorem res_eq (m : (ℓ : Loc nD τ sig) → Buf (Elt F) ℓ) (c : Dev nD) :
    Cert.ReferenceIdeal.ValueP.res_main_v100 m c
      = Spec.result (F := F) (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v100
  rfl

end Cert.ReferenceIdeal.RefValue

end
-- ==== Proof.KernelRun.lean ====
/-
  The idealized kernel's run, with its result named.

  @main is seven segments: three stretches of host operations, region 0, a stretch, region 1, a last stretch. The
  buffer contents at the boundaries are the fold `W0 … W7`: a stretch applies its operations in order, a region leaves
  its arrays at what its write-backs fold to and every other buffer as it was. Every weakly fair execution terminates
  without a fault, and in its final state every unscoped buffer holds the last boundary's contents `W7` — here read at
  the result buffer `main_v72` as well as at the four arguments, which end as launched.
-/
import proofs.«110756_j54580444398201_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v72) = W7 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v72 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Result

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.ScaleBlocks.lean ====
/-
  The two kernel regions, each read as one whole-array function.

  A region runs over 250 grid points. At point `t` it takes rows `6400 t … 6400 t + 6399` of an edge-by-feature matrix
  `X` ([1600000, 64]) and the same rows of a one-column matrix `n` ([1600000, 1]), and writes back the block whose
  entry `(p, q)` is `X (6400 t + p, q) · n (6400 t + p, 0)`. The blocks tile the output, so the array the region leaves
  is `rowScale X n`: entry `(e, d)` is `X (e, d) · n (e, 0)` — every edge's feature row times that edge's weight.
  Both regions launch the same body over the same grid; they differ in the arrays they are entered with.
-/
import proofs.«110756_j54580444398201_1_alg».proof.Proof.Gen.KernelIdeal.Frame
import proofs.«110756_j54580444398201_1_alg».proof.Proof.LibKeepdims
import Idealize.ShloMosaic.Lib.Pipeline.Value
import Idealize.ShloMosaic.Lib.ValueIdx

set_option maxRecDepth 16384

noncomputable section

namespace Cert.KernelIdeal.Scale

open Cert.KernelIdeal Cert.KernelIdeal.Gen Idealize.ShloMosaic Idealize.ShloMosaic.TcCoe Idealize.ShloMosaic.ValueIdx
open Idealize.SL Idealize.SL.Sem
open Idealize.ShloMosaic.Pipeline (Dat)

variable {F : FTy → Type} [FloatOps F]

/-- The entry of the one-column matrix that scales entry `i` of the edge-by-feature matrix: same row, column `0`. -/
abbrev rowOf (i : S1600000x64.Idx) : S1600000x1.Idx := fun a => match a with
  | ⟨0, _⟩ => ⟨(i 0).val, (i 0).isLt⟩
  | ⟨1, _⟩ => ⟨0, Nat.one_pos⟩

/-- Each row of `xs` times that row's one entry of `nc`. -/
def rowScale (xs : S1600000x64.Idx → Elt F .f32) (nc : S1600000x1.Idx → Elt F .f32) : S1600000x64.Idx → Elt F .f32 :=
  fun i => FloatOps.mulf (xs i) (nc (rowOf i))

theorem hz : (![0, 0] : Fin 2 → Nat) = fun _ => 0 := funext fun a => by fin_cases a <;> rfl

/-! ## Region 0: the features gathered along the edges (`main_v47`), scaled row by row into `main_v48` -/

/-- The body multiplies the feature block, entry by entry, by the one-column block spread along the features:
    entry `(p, q)` of the product is entry `(p, q)` of the features times entry `(p, 0)` of the column. -/
theorem pay0_apply (x0 : Vec F S6400x64 .f32) (x1 : Vec F S6400x1 .f32) (p : Fin 6400) (q : Fin 64) :
    k0_pay1 x0 x1 (ix2 p q) = FloatOps.mulf (x0 (ix2 p q)) (x1 (ix2 p (0 : Fin 1))) := by
  unfold k0_pay1
  show FloatOps.mulf (shapeCast S6400x64 x0 shapeCasts_S6400x64_S6400x64 (ix2 p q))
      (broadcastTo S6400x64 (shapeCast S6400x1 x1 shapeCasts_S6400x1_S6400x1) broadcasts_S6400x1_S6400x64 (ix2 p q)) = _
  rw [shapeCast_self, shapeCast_self, Cert.Keepdims.broadcastTo_a1_ab_apply]

/-- Over the 250 points of the grid: at point `t` every window is at block row `t`, block column `0`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` (rows `6400 t … 6400 t + 6399`) of the row-scaled matrix: the feature block
    and the output block are the same rows, and the column block is those rows of the one-column matrix. -/
theorem flushed0 (V : (c : Dev nD) → (b : Ref sig .tc) → Buf (Elt F) ((c : Thread nD τ).loc b)) (c : Dev nD) (t : Fin cfg0.N) :
    (dat0 V c).flushed 2 t = ((cfg0.win 2).blk t).view.read (Elt F) (rowScale (V c main_v47) (V c main_v36)) := by
  show (cfg0.win 2).cut (grid0.coords t) ((dat0 V c).after 2 t) = _
  rw [after0_2]
  unfold out0_2
  rw [View.canon_unit_zero hz]
  simp only [View.ld_unit_zero (S := S6400x64) hz, View.ld_unit_zero (S := S6400x1) hz]
  obtain ⟨e0, e1, e2, e3, e4, e5⟩ := idx0 t
  funext j
  obtain ⟨p, q, rfl⟩ : ∃ (p : Fin 6400) (q : Fin 64), j = ix2 p q := ⟨j 0, j 1, eq_ix2 j⟩
  refine (pay0_apply _ _ p q).trans ?_
  show FloatOps.mulf (V c main_v47 (((cfg0.win 0).blk t).view.emb (ix2 p q))) (V c main_v36 (((cfg0.win 1).blk t).view.emb (ix2 p (0 : Fin 1))))
    = FloatOps.mulf (V c main_v47 (((cfg0.win 2).blk t).view.emb (ix2 p q))) (V c main_v36 (rowOf (((cfg0.win 2).blk t).view.emb (ix2 p q))))
  have h0 : ((cfg0.win 0).blk t).view.emb (ix2 p q) = ((cfg0.win 2).blk t).view.emb (ix2 p q) := by
    funext a; apply Fin.ext
    match a with
    | ⟨0, _⟩ => show win0_0.index t (0 : Fin 2) * 6400 + 1 * p.val = win0_2.index t (0 : Fin 2) * 6400 + 1 * p.val; omega
    | ⟨1, _⟩ => show win0_0.index t (1 : Fin 2) * 64 + 1 * q.val = win0_2.index t (1 : Fin 2) * 64 + 1 * q.val; omega
  have h1 : ((cfg0.win 1).blk t).view.emb (ix2 p (0 : Fin 1)) = rowOf (((cfg0.win 2).blk t).view.emb (ix2 p q)) := by
    funext a; apply Fin.ext
    match a with
    | ⟨0, _⟩ => show win0_1.index t (0 : Fin 2) * 6400 + 1 * p.val = win0_2.index t (0 : Fin 2) * 6400 + 1 * p.val; omega
    | ⟨1, _⟩ => show win0_1.index t (1 : Fin 2) * 1 + 1 * 0 = 0; omega
  rw [h0, h1]

/-- An index of the output array is in point `t`'s block iff each coordinate is in the block's range on its axis. -/
theorem mem_blk0 (t : Fin cfg0.N) (i : S1600000x64.Idx) :
    i ∈ ((cfg0.win 2).blk t).view.set ↔ ∀ a : Fin 2, win0_2.index t a * S6400x64.size a ≤ (i a).val ∧ (i a).val < win0_2.index t a * S6400x64.size a + S6400x64.size a := by
  show i ∈ ((View.whole main_v48).slice (win0_2.rect t)).set ↔ _
  rw [View.set_slice_whole, Rect.mem_set_unit]
  exact Iff.rfl

/-- The 250 blocks of 6400 rows tile the 1600000 rows: row `r` is in the block of point `r / 6400`. -/
theorem cover0 (i : S1600000x64.Idx) : ∃ t : Fin cfg0.N, (cfg0.win 2).flush t = true ∧ i ∈ ((cfg0.win 2).blk t).view.set := by
  have hN : cfg0.N = 250 := N_0
  have hi0 : (i 0).val < 1600000 := (i 0).isLt
  have hi1 : (i 1).val < 64 := (i 1).isLt
  have ht : (i 0).val / 6400 < cfg0.N := by rw [hN]; omega
  obtain ⟨-, -, -, -, e4, e5⟩ := idx0 ⟨(i 0).val / 6400, ht⟩
  have e4' : win0_2.index ⟨(i 0).val / 6400, ht⟩ (0 : Fin 2) = (i 0).val / 6400 := e4
  refine ⟨⟨(i 0).val / 6400, ht⟩, flush0_2 _, ?_⟩
  rw [mem_blk0]
  intro a
  match a with
  | ⟨0, _⟩ => show win0_2.index ⟨(i 0).val / 6400, ht⟩ (0 : Fin 2) * 6400 ≤ (i 0).val ∧ (i 0).val < win0_2.index ⟨(i 0).val / 6400, ht⟩ (0 : Fin 2) * 6400 + 6400; omega
  | ⟨1, _⟩ => show win0_2.index ⟨(i 0).val / 6400, ht⟩ (1 : Fin 2) * 64 ≤ (i 1).val ∧ (i 1).val < win0_2.index ⟨(i 0).val / 6400, ht⟩ (1 : Fin 2) * 64 + 64; omega

/-- So the region leaves its output array at the row-scaled matrix of the two arrays it entered with, -/
theorem final0 (V : (c : Dev nD) → (b : Ref sig .tc) → Buf (Elt F) ((c : Thread nD τ).loc b)) (c : Dev nD) :
    (dat0 V c).arrAt 2 cfg0.N = rowScale (V c main_v47) (V c main_v36) :=
  (dat0 V c).arrAt_eq_of_cover 2 _ (fun t _ => flushed0 V c t) cover0

/-- and the one-column matrix, an input, as it found it. -/
theorem kept0 (V : (c : Dev nD) → (b : Ref sig .tc) → Buf (Elt F) ((c : Thread nD τ).loc b)) (c : Dev nD) :
    (dat0 V c).arrAt 1 cfg0.N = V c main_v36 :=
  ((dat0 V c).arrAt_in 1 rfl cfg0.N).trans (A_eq0 V c 1)

/-! ## Region 1: the features gathered along the edges (`main_v63`), scaled row by row into `main_v64` -/

/-- The body multiplies the feature block, entry by entry, by the one-column block spread along the features:
    entry `(p, q)` of the product is entry `(p, q)` of the features times entry `(p, 0)` of the column. -/
theorem pay1_apply (x0 : Vec F S6400x64 .f32) (x1 : Vec F S6400x1 .f32) (p : Fin 6400) (q : Fin 64) :
    k1_pay1 x0 x1 (ix2 p q) = FloatOps.mulf (x0 (ix2 p q)) (x1 (ix2 p (0 : Fin 1))) := by
  unfold k1_pay1
  show FloatOps.mulf (shapeCast S6400x64 x0 shapeCasts_S6400x64_S6400x64 (ix2 p q))
      (broadcastTo S6400x64 (shapeCast S6400x1 x1 shapeCasts_S6400x1_S6400x1) broadcasts_S6400x1_S6400x64 (ix2 p q)) = _
  rw [shapeCast_self, shapeCast_self, Cert.Keepdims.broadcastTo_a1_ab_apply]

/-- Over the 250 points of the grid: at point `t` every window is at block row `t`, block column `0`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` (rows `6400 t … 6400 t + 6399`) of the row-scaled matrix: the feature block
    and the output block are the same rows, and the column block is those rows of the one-column matrix. -/
theorem flushed1 (V : (c : Dev nD) → (b : Ref sig .tc) → Buf (Elt F) ((c : Thread nD τ).loc b)) (c : Dev nD) (t : Fin cfg1.N) :
    (dat1 V c).flushed 2 t = ((cfg1.win 2).blk t).view.read (Elt F) (rowScale (V c main_v63) (V c main_v36)) := by
  show (cfg1.win 2).cut (grid1.coords t) ((dat1 V c).after 2 t) = _
  rw [after1_2]
  unfold out1_2
  rw [View.canon_unit_zero hz]
  simp only [View.ld_unit_zero (S := S6400x64) hz, View.ld_unit_zero (S := S6400x1) hz]
  obtain ⟨e0, e1, e2, e3, e4, e5⟩ := idx1 t
  funext j
  obtain ⟨p, q, rfl⟩ : ∃ (p : Fin 6400) (q : Fin 64), j = ix2 p q := ⟨j 0, j 1, eq_ix2 j⟩
  refine (pay1_apply _ _ p q).trans ?_
  show FloatOps.mulf (V c main_v63 (((cfg1.win 0).blk t).view.emb (ix2 p q))) (V c main_v36 (((cfg1.win 1).blk t).view.emb (ix2 p (0 : Fin 1))))
    = FloatOps.mulf (V c main_v63 (((cfg1.win 2).blk t).view.emb (ix2 p q))) (V c main_v36 (rowOf (((cfg1.win 2).blk t).view.emb (ix2 p q))))
  have h0 : ((cfg1.win 0).blk t).view.emb (ix2 p q) = ((cfg1.win 2).blk t).view.emb (ix2 p q) := by
    funext a; apply Fin.ext
    match a with
    | ⟨0, _⟩ => show win1_0.index t (0 : Fin 2) * 6400 + 1 * p.val = win1_2.index t (0 : Fin 2) * 6400 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1)) = rowOf (((cfg1.win 2).blk t).view.emb (ix2 p q)) := by
    funext a; apply Fin.ext
    match a with
    | ⟨0, _⟩ => show win1_1.index t (0 : Fin 2) * 6400 + 1 * p.val = win1_2.index t (0 : Fin 2) * 6400 + 1 * p.val; omega
    | ⟨1, _⟩ => show win1_1.index t (1 : Fin 2) * 1 + 1 * 0 = 0; omega
  rw [h0, h1]

/-- An index of the output array is in point `t`'s block iff each coordinate is in the block's range on its axis. -/
theorem mem_blk1 (t : Fin cfg1.N) (i : S1600000x64.Idx) :
    i ∈ ((cfg1.win 2).blk t).view.set ↔ ∀ a : Fin 2, win1_2.index t a * S6400x64.size a ≤ (i a).val ∧ (i a).val < win1_2.index t a * S6400x64.size a + S6400x64.size a := by
  show i ∈ ((View.whole main_v64).slice (win1_2.rect t)).set ↔ _
  rw [View.set_slice_whole, Rect.mem_set_unit]
  exact Iff.rfl

/-- The 250 blocks of 6400 rows tile the 1600000 rows: row `r` is in the block of point `r / 6400`. -/
theorem cover1 (i : S1600000x64.Idx) : ∃ t : Fin cfg1.N, (cfg1.win 2).flush t = true ∧ i ∈ ((cfg1.win 2).blk t).view.set := by
  have hN : cfg1.N = 250 := N_1
  have hi0 : (i 0).val < 1600000 := (i 0).isLt
  have hi1 : (i 1).val < 64 := (i 1).isLt
  have ht : (i 0).val / 6400 < cfg1.N := by rw [hN]; omega
  obtain ⟨-, -, -, -, e4, e5⟩ := idx1 ⟨(i 0).val / 6400, ht⟩
  have e4' : win1_2.index ⟨(i 0).val / 6400, ht⟩ (0 : Fin 2) = (i 0).val / 6400 := e4
  refine ⟨⟨(i 0).val / 6400, ht⟩, flush1_2 _, ?_⟩
  rw [mem_blk1]
  intro a
  match a with
  | ⟨0, _⟩ => show win1_2.index ⟨(i 0).val / 6400, ht⟩ (0 : Fin 2) * 6400 ≤ (i 0).val ∧ (i 0).val < win1_2.index ⟨(i 0).val / 6400, ht⟩ (0 : Fin 2) * 6400 + 6400; omega
  | ⟨1, _⟩ => show win1_2.index ⟨(i 0).val / 6400, ht⟩ (1 : Fin 2) * 64 ≤ (i 1).val ∧ (i 1).val < win1_2.index ⟨(i 0).val / 6400, ht⟩ (1 : Fin 2) * 64 + 64; omega

/-- So the region leaves its output array at the row-scaled matrix of the two arrays it entered with, -/
theorem final1 (V : (c : Dev nD) → (b : Ref sig .tc) → Buf (Elt F) ((c : Thread nD τ).loc b)) (c : Dev nD) :
    (dat1 V c).arrAt 2 cfg1.N = rowScale (V c main_v63) (V c main_v36) :=
  (dat1 V c).arrAt_eq_of_cover 2 _ (fun t _ => flushed1 V c t) cover1

/-- and the one-column matrix, an input, as it found it. -/
theorem kept1 (V : (c : Dev nD) → (b : Ref sig .tc) → Buf (Elt F) ((c : Thread nD τ).loc b)) (c : Dev nD) :
    (dat1 V c).arrAt 1 cfg1.N = V c main_v36 :=
  ((dat1 V c).arrAt_in 1 rfl cfg1.N).trans (A_eq1 V c 1)

end Cert.KernelIdeal.Scale

end
-- ==== Proof.Stages.lean ====
/-
  The kernel program's stretches of host operations, read at the buffers later segments use.

  A stretch is a straight line of whole-array operations in single-assignment form, so what a buffer holds at the end of
  the stretch is the composition of the operations that lead to it, applied to what the stretch found (`V`) in the
  buffers it did not write itself. Stated with the specification's functions (Spec.lean):
  • before the first region: the rows of the looked-up embeddings at the edges' sources (`main_v47`), the edge weights
    as a column (`main_v36`), the first term `w₀ · x₀` of the result (`main_v40`), the two endpoint lists;
  • between the regions, from region 0's messages (`main_v48`): their sums at the targets — layer 1 — (`main_v51`), the
    partial result (`main_v56`) and layer 1's rows at the sources (`main_v63`);
  • after region 1, from its messages (`main_v64`): the result (`main_v72`).
-/
import proofs.«110756_j54580444398201_1_alg».proof.Proof.Gen.KernelIdeal.Launch
import proofs.«110756_j54580444398201_1_alg».proof.Proof.Spec
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.StableHlo Idealize.SL.Sem

variable {F : FTy → Type} [FloatOps F]

/-! ## Before the first region -/

set_option maxHeartbeats 8000000 in
/-- The embedding rows of the wrapped node ids, taken at the wrapped sources of the edges. -/
theorem first_v47 (V : Valuation τ sig (Elt F)) :
    after hostOps0_2 (after hostOps0_1 (after hostOps0 V)) (Proc.devRef .tc main_v47)
      = Spec.atIdx (F := F) (Spec.lookup (F := F) (V (Proc.devRef .tc main_arg0)) (V (Proc.devRef .tc main_arg1)))
          (Spec.src (F := F) (V (Proc.devRef .tc main_arg2))) := by
  after_results_simp <;> rfl

set_option maxHeartbeats 8000000 in
/-- The edge weights `dinv (src e) · dinv (tgt e)`, reshaped from a vector to a one-column matrix. -/
theorem first_v36 (V : Valuation τ sig (Elt F)) :
    after hostOps0_2 (after hostOps0_1 (after hostOps0 V)) (Proc.devRef .tc main_v36)
      = shapeCast S1600000x1 (Spec.norm (F := F) (V (Proc.devRef .tc main_arg2))) shapeCasts_S1600000_S1600000x1 := by
  after_results_simp <;> rfl

set_option maxHeartbeats 8000000 in
/-- The first term of the result: the first weight times the looked-up embeddings. -/
theorem first_v40 (V : Valuation τ sig (Elt F)) :
    after hostOps0_2 (after hostOps0_1 (after hostOps0 V)) (Proc.devRef .tc main_v40)
      = mulf (Spec.w0 (F := F) (V (Proc.devRef .tc main_arg3)))
          (Spec.lookup (F := F) (V (Proc.devRef .tc main_arg0)) (V (Proc.devRef .tc main_arg1))) := by
  after_results_simp <;> rfl

set_option maxHeartbeats 8000000 in
/-- The edges' targets. -/
theorem first_v10 (V : Valuation τ sig (Elt F)) :
    after hostOps0_2 (after hostOps0_1 (after hostOps0 V)) (Proc.devRef .tc main_v10)
      = Spec.tgt (F := F) (V (Proc.devRef .tc main_arg2)) := by
  after_results_simp <;> rfl

set_option maxHeartbeats 8000000 in
/-- The edges' sources. -/
theorem first_v8 (V : Valuation τ sig (Elt F)) :
    after hostOps0_2 (after hostOps0_1 (after hostOps0 V)) (Proc.devRef .tc main_v8)
      = Spec.src (F := F) (V (Proc.devRef .tc main_arg2)) := by
  after_results_simp <;> rfl

set_option maxHeartbeats 8000000 in
/-- The layer weights are an argument: no operation writes them. -/
theorem first_arg3 (V : Valuation τ sig (Elt F)) :
    after hostOps0_2 (after hostOps0_1 (after hostOps0 V)) (Proc.devRef .tc main_arg3) = V (Proc.devRef .tc main_arg3) := by
  after_results_simp

/-! ## Between the regions -/

set_option maxHeartbeats 4000000 in
/-- The first region's messages summed at the targets. -/
theorem mid_v51 (V : Valuation τ sig (Elt F)) :
    after hostOps1 V (Proc.devRef .tc main_v51)
      = Spec.sumAt (F := F) (V (Proc.devRef .tc main_v48)) (V (Proc.devRef .tc main_v10)) := by
  after_results_simp <;> rfl

set_option maxHeartbeats 4000000 in
/-- The first two terms of the result. -/
theorem mid_v56 (V : Valuation τ sig (Elt F)) :
    after hostOps1 V (Proc.devRef .tc main_v56)
      = addf (V (Proc.devRef .tc main_v40))
          (mulf (Spec.w1 (F := F) (V (Proc.devRef .tc main_arg3)))
            (Spec.sumAt (F := F) (V (Proc.devRef .tc main_v48)) (V (Proc.devRef .tc main_v10)))) := by
  after_results_simp <;> rfl

set_option maxHeartbeats 4000000 in
/-- The summed messages' rows at the wrapped sources of the edges. -/
theorem mid_v63 (V : Valuation τ sig (Elt F)) :
    after hostOps1 V (Proc.devRef .tc main_v63)
      = Spec.atIdx (F := F) (Spec.sumAt (F := F) (V (Proc.devRef .tc main_v48)) (V (Proc.devRef .tc main_v10)))
          (V (Proc.devRef .tc main_v8)) := by
  after_results_simp <;> rfl

set_option maxHeartbeats 4000000 in
/-- The column of edge weights, the targets and the layer weights pass through unwritten. -/
theorem mid_v36 (V : Valuation τ sig (Elt F)) : after hostOps1 V (Proc.devRef .tc main_v36) = V (Proc.devRef .tc main_v36) := by
  after_results_simp
set_option maxHeartbeats 4000000 in
theorem mid_v10 (V : Valuation τ sig (Elt F)) : after hostOps1 V (Proc.devRef .tc main_v10) = V (Proc.devRef .tc main_v10) := by
  after_results_simp
set_option maxHeartbeats 4000000 in
theorem mid_arg3 (V : Valuation τ sig (Elt F)) : after hostOps1 V (Proc.devRef .tc main_arg3) = V (Proc.devRef .tc main_arg3) := by
  after_results_simp

/-! ## After the second region -/

set_option maxHeartbeats 4000000 in
/-- The result: the partial result plus the third weight times the second region's messages summed at the targets. -/
theorem last_v72 (V : Valuation τ sig (Elt F)) :
    after hostOps2 V (Proc.devRef .tc main_v72)
      = addf (V (Proc.devRef .tc main_v56))
          (mulf (Spec.w2 (F := F) (V (Proc.devRef .tc main_arg3)))
            (Spec.sumAt (F := F) (V (Proc.devRef .tc main_v64)) (V (Proc.devRef .tc main_v10)))) := by
  after_results_simp <;> rfl

end Cert.KernelIdeal.Stages

end
-- ==== Proof.KernelValue.lean ====
/-
  The idealized kernel's result is the specification's `result` of its four arguments.

  The boundary contents `W3 … W7` of the run are walked in order. Before the first region the host operations have
  made the rows of the looked-up embeddings at the edges' sources, and the edge weights as a one-column matrix. A region
  multiplies every row of its edge-by-feature matrix by that row's entry of the column (ScaleBlocks.lean); a column made
  by reshaping the weight vector and then read at row `e` is the weight of edge `e`, which is also what the
  specification's two broadcasts (vector to column, column along the 64 features) read there — so a region's output is
  the specification's `scaled` (`rowScale_column`). The stretch between the regions sums region 0's messages at the
  targets — one layer — and gathers that layer's rows at the sources for region 1; the last stretch sums region 1's
  messages and adds the three weighted terms. No law of arithmetic is used: the two programs perform the same
  operations in the same order, and differ only in how the edge weights are laid out beside the features.
-/
import proofs.«110756_j54580444398201_1_alg».proof.Proof.ScaleBlocks
import proofs.«110756_j54580444398201_1_alg».proof.Proof.Stages
import proofs.«110756_j54580444398201_1_alg».proof.Proof.Spec
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

variable {F : FTy → Type} [FloatOps F]

/-- The entry of the weight vector that scales entry `i` of the edge-by-feature matrix: the edge `i` is a row of. -/
abbrev edgeOf (i : S1600000x64.Idx) : S1600000.Idx := fun a => match a with
  | ⟨0, _⟩ => ⟨(i 0).val, (i 0).isLt⟩

/-- Rows scaled by the weight vector reshaped to a column are rows scaled by the weight vector broadcast to a column
    and then along the features: at `(e, d)` both read the weight of edge `e`. -/
theorem rowScale_column (xs : (⟨S1600000x64, .f32⟩ : BufTy).Contents (Elt F)) (nrm : (⟨S1600000, .f32⟩ : BufTy).Contents (Elt F)) :
    Scale.rowScale (F := F) xs (shapeCast S1600000x1 nrm shapeCasts_S1600000_S1600000x1) = Spec.scaled (F := F) xs nrm := by
  funext i
  unfold Scale.rowScale Spec.scaled
  show FloatOps.mulf (xs i) (shapeCast S1600000x1 nrm shapeCasts_S1600000_S1600000x1 (Scale.rowOf i))
    = FloatOps.mulf (xs i) (broadcastInDim Cert.ReferenceIdeal.S1600000x64 ![0, 1] _
        (broadcastInDim Cert.ReferenceIdeal.S1600000x1 ![0] _ nrm) i)
  refine congrArg (FloatOps.mulf (xs i)) ?_
  refine Eq.trans ?_ (broadcastInDim_apply (s := Cert.ReferenceIdeal.S1600000x1) (t := Cert.ReferenceIdeal.S1600000x64) _ _ _ i (Scale.rowOf i) (fun a => match a with
    | ⟨0, _⟩ => by show (i 0).val = if (1600000 : Nat) = 1 then 0 else (i 0).val; rw [if_neg (by decide)]
    | ⟨1, _⟩ => by show 0 = if (1 : Nat) = 1 then 0 else (i 1).val; rw [if_pos rfl])).symm
  refine Eq.trans ?_ (broadcastInDim_apply (s := Cert.ReferenceIdeal.S1600000) (t := Cert.ReferenceIdeal.S1600000x1) _ _ nrm (Scale.rowOf i) (edgeOf i) (fun a => match a with
    | ⟨0, _⟩ => by show (i 0).val = if (1600000 : Nat) = 1 then 0 else (i 0).val; rw [if_neg (by decide)])).symm
  exact shapeCast_apply nrm shapeCasts_S1600000_S1600000x1 (Scale.rowOf i) (edgeOf i)
    (by rw [Shape.rowMajor_val_two, Shape.rowMajor_val_one]; show (i 0).val = (i 0).val * 1 + 0; omega)

variable (m : (ℓ : Loc nD τ sig) → Buf (Elt F) ℓ) (ρ : Dev nD → PrngReg) (c : Dev nD)

set_option quotPrecheck false in
local notation "tbl" => m ((c : Thread nD τ).loc main_arg0)
set_option quotPrecheck false in
local notation "ids" => m ((c : Thread nD τ).loc main_arg1)
set_option quotPrecheck false in
local notation "edges" => m ((c : Thread nD τ).loc main_arg2)
set_option quotPrecheck false in
local notation "wts" => m ((c : Thread nD τ).loc main_arg3)
local notation "x₀" => Spec.lookup (F := F) tbl ids
local notation "x₁" => Spec.layer (F := F) x₀ edges
local notation "nrmCol" => shapeCast S1600000x1 (Spec.norm (F := F) edges) shapeCasts_S1600000_S1600000x1

/-! ## Region 0's entry (`W3`) -/

theorem in0_v47 : V3 m ρ c main_v47 = Spec.atIdx (F := F) x₀ (Spec.src (F := F) edges) := Stages.first_v47 (W0 m ρ c)
theorem in0_v36 : V3 m ρ c main_v36 = nrmCol := Stages.first_v36 (W0 m ρ c)
theorem at3_v40 : W3 m ρ c (Proc.devRef .tc main_v40) = mulf (Spec.w0 (F := F) wts) x₀ := Stages.first_v40 (W0 m ρ c)
theorem at3_v10 : W3 m ρ c (Proc.devRef .tc main_v10) = Spec.tgt (F := F) edges := Stages.first_v10 (W0 m ρ c)
theorem at3_v8 : W3 m ρ c (Proc.devRef .tc main_v8) = Spec.src (F := F) edges := Stages.first_v8 (W0 m ρ c)
theorem at3_arg3 : W3 m ρ c (Proc.devRef .tc main_arg3) = wts := Stages.first_arg3 (W0 m ρ c)

/-! ## Region 0's exit (`W4`) -/

/-- Region 0 leaves the first layer's messages. -/
theorem at4_v48 : W4 m ρ c (Proc.devRef .tc main_v48)
    = Spec.scaled (F := F) (Spec.atIdx (F := F) x₀ (Spec.src (F := F) edges)) (Spec.norm (F := F) edges) := by
  refine (W4_arr m ρ c 2).trans ?_
  refine (Scale.final0 (V3 m ρ) c).trans ?_
  rw [in0_v47, in0_v36]
  exact rowScale_column _ _
theorem at4_v36 : W4 m ρ c (Proc.devRef .tc main_v36) = nrmCol :=
  (W4_arr m ρ c 1).trans ((Scale.kept0 (V3 m ρ) c).trans (in0_v36 m ρ c))
theorem at4_v40 : W4 m ρ c (Proc.devRef .tc main_v40) = mulf (Spec.w0 (F := F) wts) x₀ :=
  (W4_of_ne m ρ c main_v40 (by decide)).trans (at3_v40 m ρ c)
theorem at4_v10 : W4 m ρ c (Proc.devRef .tc main_v10) = Spec.tgt (F := F) edges :=
  (W4_of_ne m ρ c main_v10 (by decide)).trans (at3_v10 m ρ c)
theorem at4_v8 : W4 m ρ c (Proc.devRef .tc main_v8) = Spec.src (F := F) edges :=
  (W4_of_ne m ρ c main_v8 (by decide)).trans (at3_v8 m ρ c)
theorem at4_arg3 : W4 m ρ c (Proc.devRef .tc main_arg3) = wts :=
  (W4_of_ne m ρ c main_arg3 (by decide)).trans (at3_arg3 m ρ c)

/-! ## Region 1's entry (`W5`) -/

/-- The first layer: region 0's messages summed at the targets. -/
theorem at5_v51 : W5 m ρ c (Proc.devRef .tc main_v51) = x₁ :=
  (Stages.mid_v51 (W4 m ρ c)).trans (by rw [at4_v48, at4_v10]; rfl)
theorem at5_v56 : W5 m ρ c (Proc.devRef .tc main_v56)
    = addf (mulf (Spec.w0 (F := F) wts) x₀) (mulf (Spec.w1 (F := F) wts) x₁) :=
  (Stages.mid_v56 (W4 m ρ c)).trans (by rw [at4_v40, at4_arg3, at4_v48, at4_v10]; rfl)
theorem in1_v63 : V5 m ρ c main_v63 = Spec.atIdx (F := F) x₁ (Spec.src (F := F) edges) :=
  (Stages.mid_v63 (W4 m ρ c)).trans (by rw [at4_v48, at4_v10, at4_v8]; rfl)
theorem in1_v36 : V5 m ρ c main_v36 = nrmCol := (Stages.mid_v36 (W4 m ρ c)).trans (at4_v36 m ρ c)
theorem at5_v10 : W5 m ρ c (Proc.devRef .tc main_v10) = Spec.tgt (F := F) edges :=
  (Stages.mid_v10 (W4 m ρ c)).trans (at4_v10 m ρ c)
theorem at5_arg3 : W5 m ρ c (Proc.devRef .tc main_arg3) = wts := (Stages.mid_arg3 (W4 m ρ c)).trans (at4_arg3 m ρ c)

/-! ## Region 1's exit (`W6`) -/

/-- Region 1 leaves the second layer's messages. -/
theorem at6_v64 : W6 m ρ c (Proc.devRef .tc main_v64)
    = Spec.scaled (F := F) (Spec.atIdx (F := F) x₁ (Spec.src (F := F) edges)) (Spec.norm (F := F) edges) := by
  refine (W6_arr m ρ c 2).trans ?_
  refine (Scale.final1 (V5 m ρ) c).trans ?_
  rw [in1_v63, in1_v36]
  exact rowScale_column _ _
theorem at6_v56 : W6 m ρ c (Proc.devRef .tc main_v56)
    = addf (mulf (Spec.w0 (F := F) wts) x₀) (mulf (Spec.w1 (F := F) wts) x₁) :=
  (W6_of_ne m ρ c main_v56 (by decide)).trans (at5_v56 m ρ c)
theorem at6_v10 : W6 m ρ c (Proc.devRef .tc main_v10) = Spec.tgt (F := F) edges :=
  (W6_of_ne m ρ c main_v10 (by decide)).trans (at5_v10 m ρ c)
theorem at6_arg3 : W6 m ρ c (Proc.devRef .tc main_arg3) = wts :=
  (W6_of_ne m ρ c main_arg3 (by decide)).trans (at5_arg3 m ρ c)

/-! ## The result (`W7`) -/

/-- The result buffer ends at the weighted sum of the embeddings, their first layer and their second layer. -/
theorem out : W7 m ρ c (Proc.devRef .tc main_v72) = Spec.result (F := F) tbl ids edges wts :=
  (Stages.last_v72 (W6 m ρ c)).trans (by rw [at6_v56, at6_arg3, at6_v64, at6_v10]; rfl)

end Cert.KernelIdeal.Whole

end
-- ==== Proof.lean ====
/-
  The certificate of a LightGCN forward pass: an embedding lookup, two degree-normalised propagation layers over
  1,600,000 edges, and a weighted sum of the three stages, computed by a program that does the per-edge scaling
  `x (src e, ·) · norm e` in a tiled kernel (two launches, 250 blocks of 6400 edges each) against a reference that
  does it with whole-array operations.

  On the extended reals the two programs compute the same function of their arguments, operation for operation:
  Spec.lean states it (`Spec.result`); KernelValue.lean reads it off the kernel program's run (the two regions as
  whole-array functions in ScaleBlocks.lean, the host operations around them in Stages.lean, the run itself in
  KernelRun.lean); RefValue.lean reads it off the reference's run. The equality uses no law of arithmetic — only that
  a weight vector reshaped to a column and spread along the features inside the kernel, and the same vector broadcast
  to a column and along the features by the reference, put the weight of edge `e` at every entry of row `e` — so the
  precondition (finite inputs) is never opened. The idealization rewrote nothing, so `preserves` is `True`.
-/
import proofs.«110756_j54580444398201_1_alg».proof.Defs
import proofs.«110756_j54580444398201_1_alg».proof.Proof.Gen.Kernel
import proofs.«110756_j54580444398201_1_alg».proof.Proof.Gen.Kernel.Skeleton
import proofs.«110756_j54580444398201_1_alg».proof.Proof.Gen.Kernel.Launch
import proofs.«110756_j54580444398201_1_alg».proof.Proof.Gen.Kernel.Points
import proofs.«110756_j54580444398201_1_alg».proof.Proof.Gen.Kernel.Frame
import proofs.«110756_j54580444398201_1_alg».proof.Proof.Gen.KernelIdeal
import proofs.«110756_j54580444398201_1_alg».proof.Proof.Gen.KernelIdeal.Skeleton
import proofs.«110756_j54580444398201_1_alg».proof.Proof.Gen.KernelIdeal.Launch
import proofs.«110756_j54580444398201_1_alg».proof.Proof.Gen.KernelIdeal.Points
import proofs.«110756_j54580444398201_1_alg».proof.Proof.Gen.KernelIdeal.Frame
import proofs.«110756_j54580444398201_1_alg».proof.Proof.Gen.ReferenceIdeal
import proofs.«110756_j54580444398201_1_alg».proof.Proof.Gen.Pre_finite_inputs
import proofs.«110756_j54580444398201_1_alg».proof.Proof.RefRun
import proofs.«110756_j54580444398201_1_alg».proof.Proof.RefValue
import proofs.«110756_j54580444398201_1_alg».proof.Proof.KernelRun
import proofs.«110756_j54580444398201_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the four arguments both programs end with their result at `Spec.result` of those
    arguments, and with the arguments unchanged. -/
theorem algebraic : Cert.algebraic_KernelIdeal_ReferenceIdeal := by
  intro m ρ m' ρ' _ hagree
  refine ⟨fun c => Cert.Spec.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Whole.out (F := Ideal) m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
